-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512x3 : Shape := ⟨3, ![4096, 512, 3]⟩
abbrev S3x128 : Shape := ⟨2, ![3, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩

class Facts : Prop where
  bcast_S_S4096x512x3 : S_.BroadcastsInDim S4096x512x3 (![] : Fin 0 → Fin S4096x512x3.rank)
  reducesTo_S4096x512x3_S_d0_1_2 : S4096x512x3.ReducesTo [0, 1, 2] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg4 : FVec F S128 .f32) (main_arg5 : FVec F S128x6 .f32) (main_arg6 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x6 .f32 := Host.absf main_arg5
  let main_cst_8 : FVec F S_ .f32 := constant S_ .f32 0x7F800000#32
  let main_v25 : FVec F S128x6 .f32 := broadcastInDim S128x6 ![] bcast_S_S128x6 main_cst_8
  let main_v26 : IVec S128x6 1 := cmpf .olt main_v24 main_v25
  let main_c_9 : IVec S_ 1 := constantI S_ 1 1#1
  let main_v27 : IVec S_ 1 := (fun x v => Host.reduce IntOp.andi x v reducesTo_S128x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S4096x512x3 .f32) (main_arg1 : FVec F S3x128 .f32) (main_arg2 : FVec F S128 .f32) (main_arg3 : FVec F S128x128 .f32) (main_arg4 : FVec F S128 .f32) (main_arg5 : FVec F S128x6 .f32) (main_arg6 : FVec F S6 .f32) : IVec S_ 1 :=
  let main_v0 : FVec F S4096x512x3 .f32 := Host.absf main_arg0
  let main_cst : FVec F S_ .f32 := constant S_ .f32 0x7F800000#32
  let main_v1 : FVec F S4096x512x3 .f32 := broadcastInDim S4096x512x3 ![] bcast_S_S4096x512x3 main_cst
  let main_v2 : IVec S4096x512x3 1 := cmpf .olt main_v0 main_v1
  let main_c : IVec S_ 1 := constantI S_ 1 1#1
  let main_v3 : IVec S_ 1 := (fun x v => Host.reduce IntOp.andi x v reducesTo_S4096x512x3_S_d0_1_2 h_S_) main_v2 main_c
  let main_v4 : FVec F S3x128 .f32 := Host.absf main_arg1
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S4096x512x3 : Shape := ⟨3, ![4096, 512, 3]⟩
abbrev S3x128 : Shape := ⟨2, ![3, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S2097152x3 : Shape := ⟨2, ![2097152, 3]⟩
abbrev S3x2097152 : Shape := ⟨2, ![3, 2097152]⟩
abbrev S128x3 : Shape := ⟨2, ![128, 3]⟩
abbrev S6x128 : Shape := ⟨2, ![6, 128]⟩
abbrev S128x1 : Shape := ⟨2, ![128, 1]⟩
abbrev S6x1 : Shape := ⟨2, ![6, 1]⟩
abbrev S6x2097152 : Shape := ⟨2, ![6, 2097152]⟩
abbrev S3x32768 : Shape := ⟨2, ![3, 32768]⟩
abbrev S6x32768 : Shape := ⟨2, ![6, 32768]⟩
abbrev S3x4096 : Shape := ⟨2, ![3, 4096]⟩
abbrev S128x4096 : Shape := ⟨2, ![128, 4096]⟩
abbrev S6x4096 : Shape := ⟨2, ![6, 4096]⟩
abbrev S2097152x6 : Shape := ⟨2, ![2097152, 6]⟩
abbrev S4096x3072 : Shape := ⟨2, ![4096, 3072]⟩

abbrev nBuf : Space → Nat
  | .hbm => 21
  | .vmem => 10
  | .smem => 0
  | _ => 0

abbrev bufTy : (tb : Table) → Fin (tcTables nBuf tb) → BufTy
  | .hbm, ⟨0, _⟩ => ⟨S4096x512x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x6, .f32⟩
  | .hbm, ⟨6, _⟩ => ⟨S6, .f32⟩
  | .hbm, ⟨7, _⟩ => ⟨S2097152x3, .f32⟩
  | .hbm, ⟨8, _⟩ => ⟨S3x2097152, .f32⟩
  | .hbm, ⟨9, _⟩ => ⟨S128x3, .f32⟩
  | .hbm, ⟨10, _⟩ => ⟨S128x3, .bf16⟩
  | .hbm, ⟨11, _⟩ => ⟨S128x128, .f32⟩
  | .hbm, ⟨12, _⟩ => ⟨S128x128, .bf16⟩
  | .hbm, ⟨13, _⟩ => ⟨S6x128, .f32⟩
  | .hbm, ⟨14, _⟩ => ⟨S6x128, .bf16⟩
  | .hbm, ⟨15, _⟩ => ⟨S128x1, .f32⟩
  | .hbm, ⟨16, _⟩ => ⟨S128x1, .f32⟩
  | .hbm, ⟨17, _⟩ => ⟨S6x1, .f32⟩
  | .hbm, ⟨18, _⟩ => ⟨S6x2097152, .f32⟩
  | .hbm, ⟨19, _⟩ => ⟨S2097152x6, .f32⟩
  | .hbm, ⟨20, _⟩ => ⟨S4096x3072, .f32⟩
  | .local _ .vmem, ⟨0, _⟩ => ⟨S3x32768, .f32⟩
  | .local _ .vmem, ⟨1, _⟩ => ⟨S3x32768, .f32⟩
  | .local _ .vmem, ⟨2, _⟩ => ⟨S128x3, .bf16⟩
  | .local _ .vmem, ⟨3, _⟩ => ⟨S128x1, .f32⟩
  | .local _ .vmem, ⟨4, _⟩ => ⟨S128x128, .bf16⟩
  | .local _ .vmem, ⟨5, _⟩ => ⟨S128x1, .f32⟩
  | .local _ .vmem, ⟨6, _⟩ => ⟨S6x128, .bf16⟩
  | .local _ .vmem, ⟨7, _⟩ => ⟨S6x1, .f32⟩
  | .local _ .vmem, ⟨8, _⟩ => ⟨S6x32768, .f32⟩
  | .local _ .vmem, ⟨9, _⟩ => ⟨S6x32768, .f32⟩
  | _, _ => ⟨S4096x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c4096_i32 : BitVec 32 := 4096#32
  let v12 : BitVec 32 := Scalar.muli c0_i32 c4096_i32
  v12
def k0_off1 (c0_i32 : BitVec 32) : Fin 2 → Nat :=
  let c0_11 : Index := 0#32
  let c4096_i32 : BitVec 32 := 4096#32
  let v12 : BitVec 32 := Scalar.muli c0_i32 c4096_i32
  let v13 : BitVec 32 := v12
  let v14 : Index := Scalar.indexCast v13
  ![0, v14.toNat]
def k0_off2 (c0_i32 : BitVec 32) : Fin 2 → Nat :=
  let c0_16 : Index := 0#32
  let c4096_i32 : BitVec 32 := 4096#32
  let v12 : BitVec 32 := Scalar.muli c0_i32 c4096_i32
  let v13 : BitVec 32 := v12
  let v33 : Index := Scalar.indexCast v13
  ![0, v33.toNat]
def k0_mult2 : BitVec 32 :=
  let c1_i32 : BitVec 32 := 1#32
  let c4096_i32_17 : BitVec 32 := 4096#32
  let v35 : BitVec 32 := Scalar.muli c1_i32 c4096_i32_17
  v35
def k0_mult3 : BitVec 32 :=
  let c2_i32 : BitVec 32 := 2#32
  let c4096_i32_25 : BitVec 32 := 4096#32
  let v58 : BitVec 32 := Scalar.muli c2_i32 c4096_i32_25
  v58
def k0_mult4 : BitVec 32 :=
  let c3_i32 : BitVec 32 := 3#32
  let c4096_i32_33 : BitVec 32 := 4096#32
  let v81 : BitVec 32 := Scalar.muli c3_i32 c4096_i32_33
  v81
def k0_mult5 : BitVec 32 :=
  let c4_i32 : BitVec 32 := 4#32
  let c4096_i32_41 : BitVec 32 := 4096#32
  let v104 : BitVec 32 := Scalar.muli c4_i32 c4096_i32_41
  v104
def k0_mult6 : BitVec 32 :=
  let c5_i32 : BitVec 32 := 5#32
  let c4096_i32_49 : BitVec 32 := 4096#32
  let v127 : BitVec 32 := Scalar.muli c5_i32 c4096_i32_49
  v127
def k0_mult7 : BitVec 32 :=
  let c6_i32 : BitVec 32 := 6#32
  let c4096_i32_57 : BitVec 32 := 4096#32
  let v150 : BitVec 32 := Scalar.muli c6_i32 c4096_i32_57
  v150
def k0_mult8 : BitVec 32 :=
  let c7_i32 : BitVec 32 := 7#32
  let c4096_i32_65 : BitVec 32 := 4096#32
  let v173 : BitVec 32 := Scalar.muli c7_i32 c4096_i32_65
  v173
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096x512x3_S2097152x3 : S4096x512x3.ShapeCasts S2097152x3
  transposes_S2097152x3_S3x2097152_1_0 : S2097152x3.Transposes [1, 0] S3x2097152
  transposes_S3x128_S128x3_1_0 : S3x128.Transposes [1, 0] S128x3
  bitsLt_bf16_f32 : FTy.bits .bf16 < FTy.bits .f32
  transposes_S128x128_S128x128_1_0 : S128x128.Transposes [1, 0] S128x128
  transposes_S128x6_S6x128_1_0 : S128x6.Transposes [1, 0] S6x128
  shapeCasts_S128_S128x1 : S128.ShapeCasts S128x1
  shapeCasts_S6_S6x1 : S6.ShapeCasts S6x1
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S6x1_S6x1_0_0 : ∀ a, (![0, 0] : Fin 2 → Nat) a + S6x1.size a ≤ S6x1.size a
  h_S6x1 : 0 < S6x1.numel
  shapeCasts_S6x1_S6x1 : S6x1.ShapeCasts S6x1
  h_S3x4096 : 0 < S3x4096.numel
  shapeCasts_S3x4096_S3x4096 : S3x4096.ShapeCasts S3x4096
  broadcasts_S128x1_S128x4096 : S128x1.Broadcasts S128x4096
  broadcasts_S6x1_S6x4096 : S6x1.Broadcasts S6x4096
  h_S6x4096 : 0 < S6x4096.numel
  transposes_S6x2097152_S2097152x6_1_0 : S6x2097152.Transposes [1, 0] S2097152x6
  shapeCasts_S2097152x6_S4096x3072 : S2097152x6.ShapeCasts S4096x3072
  dot_S128x3_S3x4096_S128x4096_1_0_0_1_n_n_wf : DotDims.WF S128x3 S3x4096 S128x4096 [1] [0] [0] [1] [] []
  dot_S128x128_S128x4096_S128x4096_1_0_0_1_n_n_wf : DotDims.WF S128x128 S128x4096 S128x4096 [1] [0] [0] [1] [] []
  dot_S6x128_S128x4096_S6x4096_1_0_0_1_n_n_wf : DotDims.WF S6x128 S128x4096 S6x4096 [1] [0] [0] [1] [] []
  hrank0 : 0 < grid0.rank
  k0_mult1_dvd : 4096 ∣ k0_mult1.toNat
  k0_off1_inb : ∀ (r : Fin 8), ∀ a, (k0_off1 (BitVec.ofNat 32 r.val)) a + S3x4096.size a ≤ S3x32768.size a
  k0_off2_inb : ∀ (r : Fin 8), ∀ a, (k0_off2 (BitVec.ofNat 32 r.val)) a + S6x4096.size a ≤ S6x32768.size a
  k0_mult2_dvd : 4096 ∣ k0_mult2.toNat
  k0_mult3_dvd : 4096 ∣ k0_mult3.toNat
  k0_mult4_dvd : 4096 ∣ k0_mult4.toNat
  k0_mult5_dvd : 4096 ∣ k0_mult5.toNat
  k0_mult6_dvd : 4096 ∣ k0_mult6.toNat
  k0_mult7_dvd : 4096 ∣ k0_mult7.toNat
  k0_mult8_dvd : 4096 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x2097152.size a
  hwx0_0 : ∀ i : grid0.Coords, EltTy.bits .f32 = 32 ∨ (Rect.block (s := S3x2097152) S3x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .bf16 = 32 ∨ (Rect.block (s := S128x3) S128x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x128.size a ≤ S6x128.size a
  hwx0_5 : ∀ i : grid0.Coords, EltTy.bits .bf16 = 32 ∨ (Rect.block (s := S6x128) S6x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x1.size a ≤ S6x1.size a
  hwx0_6 : ∀ i : grid0.Coords, EltTy.bits .f32 = 32 ∨ (Rect.block (s := S6x1) S6x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6x32768.size a ≤ S6x2097152.size a
  hwx0_7 : ∀ i : grid0.Coords, EltTy.bits .f32 = 32 ∨ (Rect.block (s := S6x2097152) S6x32768.size (cc0_transform_7 i) (hinb0_7 i)).WholeWords (EltTy.packing .f32)

variable [Facts₀]

def dot_S128x3_S3x4096_S128x4096_1_0_0_1_n_n : DotDims S128x3 S3x4096 S128x4096 where
  lhsContracting := [1]
  rhsContracting := [0]
  lhsNonContracting := [0]
  rhsNonContracting := [1]
  lhsBatch := []
  rhsBatch := []
  wf := dot_S128x3_S3x4096_S128x4096_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S6x128_S128x4096_S6x4096_1_0_0_1_n_n : DotDims S6x128 S128x4096 S6x4096 where
  lhsContracting := [1]
  rhsContracting := [0]
  lhsNonContracting := [0]
  rhsNonContracting := [1]
  lhsBatch := []
  rhsBatch := []
  wf := dot_S6x128_S128x4096_S6x4096_1_0_0_1_n_n_wf

abbrev win0_0 : Pipeline.Window sig grid0 :=
  Pipeline.Window.ofSpec (Memref.whole main_v1) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S6x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S6x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S6x32768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x512x3 : Shape := ⟨3, ![4096, 512, 3]⟩
abbrev S3x128 : Shape := ⟨2, ![3, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S4096x512x128 : Shape := ⟨3, ![4096, 512, 128]⟩
abbrev S1x1x128 : Shape := ⟨3, ![1, 1, 128]⟩
abbrev S_ : Shape := ⟨0, ![]⟩
abbrev S4096x512x6 : Shape := ⟨3, ![4096, 512, 6]⟩
abbrev S1x1x6 : Shape := ⟨3, ![1, 1, 6]⟩
abbrev S4096x3072 : Shape := ⟨2, ![4096, 3072]⟩

abbrev nBuf : Space → Nat
  | .hbm => 26
  | .vmem => 0
  | .smem => 0
  | _ => 0

abbrev bufTy : (tb : Table) → Fin (tcTables nBuf tb) → BufTy
  | .hbm, ⟨0, _⟩ => ⟨S4096x512x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x6, .f32⟩
  | .hbm, ⟨6, _⟩ => ⟨S6, .f32⟩
  | .hbm, ⟨7, _⟩ => ⟨S4096x512x128, .f32⟩
  | .hbm, ⟨8, _⟩ => ⟨S1x1x128, .f32⟩
  | .hbm, ⟨9, _⟩ => ⟨S4096x512x128, .f32⟩
  | .hbm, ⟨10, _⟩ => ⟨S4096x512x128, .f32⟩
  | .hbm, ⟨11, _⟩ => ⟨S_, .f32⟩
  | .hbm, ⟨12, _⟩ => ⟨S4096x512x128, .f32⟩
  | .hbm, ⟨13, _⟩ => ⟨S4096x512x128, .f32⟩
  | .hbm, ⟨14, _⟩ => ⟨S4096x512x128, .f32⟩
  | .hbm, ⟨15, _⟩ => ⟨S1x1x128, .f32⟩
  | .hbm, ⟨16, _⟩ => ⟨S4096x512x128, .f32⟩
  | .hbm, ⟨17, _⟩ => ⟨S4096x512x128, .f32⟩
  | .hbm, ⟨18, _⟩ => ⟨S_, .f32⟩
  | .hbm, ⟨19, _⟩ => ⟨S4096x512x128, .f32⟩
  | .hbm, ⟨20, _⟩ => ⟨S4096x512x128, .f32⟩
  | .hbm, ⟨21, _⟩ => ⟨S4096x512x6, .f32⟩
  | .hbm, ⟨22, _⟩ => ⟨S1x1x6, .f32⟩
  | .hbm, ⟨23, _⟩ => ⟨S4096x512x6, .f32⟩
  | .hbm, ⟨24, _⟩ => ⟨S4096x512x6, .f32⟩
  | .hbm, ⟨25, _⟩ => ⟨S4096x3072, .f32⟩
  | _, _ => ⟨S4096x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4096x512x128_0_1_2 : S1x1x128.BroadcastsInDim S4096x512x128 (![0, 1, 2] : Fin 3 → Fin S4096x512x128.rank)
  bcast_S_S4096x512x128 : S_.BroadcastsInDim S4096x512x128 (![] : Fin 0 → Fin S4096x512x128.rank)
  bcast_S6_S1x1x6_2 : S6.BroadcastsInDim S1x1x6 (![2] : Fin 1 → Fin S1x1x6.rank)
  bcast_S1x1x6_S4096x512x6_0_1_2 : S1x1x6.BroadcastsInDim S4096x512x6 (![0, 1, 2] : Fin 3 → Fin S4096x512x6.rank)
  shapeCasts_S4096x512x6_S4096x3072 : S4096x512x6.ShapeCasts S4096x3072
  dot_S4096x512x3_S3x128_S4096x512x128_2_0_01_1_n_n_wf : DotDims.WF S4096x512x3 S3x128 S4096x512x128 [2] [0] [0, 1] [1] [] []
  dot_S4096x512x128_S128x128_S4096x512x128_2_0_01_1_n_n_wf : DotDims.WF S4096x512x128 S128x128 S4096x512x128 [2] [0] [0, 1] [1] [] []
  dot_S4096x512x128_S128x6_S4096x512x6_2_0_01_1_n_n_wf : DotDims.WF S4096x512x128 S128x6 S4096x512x6 [2] [0] [0, 1] [1] [] []

variable [Facts₀]

def dot_S4096x512x3_S3x128_S4096x512x128_2_0_01_1_n_n : DotDims S4096x512x3 S3x128 S4096x512x128 where
  lhsContracting := [2]
  rhsContracting := [0]
  lhsNonContracting := [0, 1]
  rhsNonContracting := [1]
  lhsBatch := []
  rhsBatch := []
  wf := dot_S4096x512x3_S3x128_S4096x512x128_2_0_01_1_n_n_wf
def dot_S4096x512x128_S128x128_S4096x512x128_2_0_01_1_n_n : DotDims S4096x512x128 S128x128 S4096x512x128 where
  lhsContracting := [2]
  rhsContracting := [0]
  lhsNonContracting := [0, 1]
  rhsNonContracting := [1]
  lhsBatch := []
  rhsBatch := []
  wf := dot_S4096x512x128_S128x128_S4096x512x128_2_0_01_1_n_n_wf
def dot_S4096x512x128_S128x6_S4096x512x6_2_0_01_1_n_n : DotDims S4096x512x128 S128x6 S4096x512x6 where
  lhsContracting := [2]
  rhsContracting := [0]
  lhsNonContracting := [0, 1]
  rhsNonContracting := [1]
  lhsBatch := []
  rhsBatch := []
  wf := dot_S4096x512x128_S128x6_S4096x512x6_2_0_01_1_n_n_wf

class Facts : Prop extends Facts₀ where

variable [Facts]
-- ==== Proof.Cols.lean ====
/- The kernel's body, once: what it computes on one block of 4096 columns. The body is the same three layers
   written out eight times, once per block of columns of the tile; here that computation is one definition, and each
   of the eight stored values is shown to be it. -/
import proofs.«119719_j86706799772094_2_alg».proof.Proof.Gen.KernelIdeal.Skeleton

noncomputable section

namespace Cert.KernelIdeal.Cols

open Idealize.ShloMosaic Idealize.SL.Sem Cert.KernelIdeal Cert.KernelIdeal.Gen

variable {F : FTy → Type} [FloatOps F]

/-- First layer before its activation, on a block of columns `z` (features × columns): the transposed weights
    (outputs × features) times the block, plus the bias column along every column. -/
def lin1 (w : FVec F S128x3 .bf16) (b : FVec F S128x1 .f32) (z : FVec F S3x4096 .bf16) : FVec F S128x4096 .f32 :=
  addf (matmul dot_S128x3_S3x4096_S128x4096_1_0_0_1_n_n none w z (constant S128x4096 .f32 0x00000000#32))
    (broadcastTo S128x4096 b broadcasts_S128x1_S128x4096)

/-- The activation of a hidden layer: the larger of each entry and zero, then the change of format on the way into
    the next product. -/
def act (x : FVec F S128x4096 .f32) : FVec F S128x4096 .bf16 :=
  truncf .bf16 (maximumf x (broadcast S128x4096 (Scalar.ofBits .f32 0x00000000#32))) bitsLt_bf16_f32

/-- Second layer before its activation. -/
def lin2 (w : FVec F S128x128 .bf16) (b : FVec F S128x1 .f32) (h : FVec F S128x4096 .bf16) : FVec F S128x4096 .f32 :=
  addf (matmul dot_S128x128_S128x4096_S128x4096_1_0_0_1_n_n none w h (constant S128x4096 .f32 0x00000000#32))
    (broadcastTo S128x4096 b broadcasts_S128x1_S128x4096)

/-- The output layer. -/
def lin3 (w : FVec F S6x128 .bf16) (b : FVec F S6x1 .f32) (h : FVec F S128x4096 .bf16) : FVec F S6x4096 .f32 :=
  addf (matmul dot_S6x128_S128x4096_S6x4096_1_0_0_1_n_n none w h (constant S6x4096 .f32 0x00000000#32))
    (broadcastTo S6x4096 b broadcasts_S6x1_S6x4096)

/-- The three layers on one block of columns as loaded. -/
def cols (w1 : FVec F S128x3 .bf16) (b1 : FVec F S128x1 .f32) (w2 : FVec F S128x128 .bf16) (b2 : FVec F S128x1 .f32)
    (w3 : FVec F S6x128 .bf16) (b3 : FVec F S6x1 .f32) (z : Vec F S3x4096 .f32) : FVec F S6x4096 .f32 :=
  lin3 w3 b3 (act (lin2 w2 b2 (act (lin1 w1 b1
    (truncf .bf16 (shapeCast S3x4096 z shapeCasts_S3x4096_S3x4096) bitsLt_bf16_f32)))))

/-! Each stored value of the body is `cols` of the weights and biases as loaded and of its own block of columns. The
    body's text is cut into consecutive windows by length alone, so two of the eight are spread over two windows. -/

theorem pay9_eq (v0 : Vec F S128x3 .bf16) (v2 : Vec F S128x128 .bf16) (v4 : Vec F S6x128 .bf16) (v6 : Vec F S128x1 .f32)
    (v8 : Vec F S128x1 .f32) (v10 : Vec F S6x1 .f32) (z : Vec F S3x4096 .f32) :
    k0_pay9 v0 v2 v4 v6 v8 v10 z = cols (k0_pay3 v0) (k0_pay6 v6) (k0_pay4 v2) (k0_pay7 v8) (k0_pay5 v4) (k0_pay8 v10) z := rfl

theorem pay10_eq (v1 : FVec F S128x3 .bf16) (v3 : FVec F S128x128 .bf16) (v5 : FVec F S6x128 .bf16) (v7 : FVec F S128x1 .f32)
    (v9 : FVec F S128x1 .f32) (v11 : FVec F S6x1 .f32) (z : Vec F S3x4096 .f32) :
    k0_pay10 v1 v3 v5 v7 v9 v11 z = cols v1 v7 v3 v9 v5 v11 z := rfl

theorem pay11_eq (v1 : FVec F S128x3 .bf16) (v3 : FVec F S128x128 .bf16) (v5 : FVec F S6x128 .bf16) (v7 : FVec F S128x1 .f32)
    (v9 : FVec F S128x1 .f32) (v11 : FVec F S6x1 .f32) (z : Vec F S3x4096 .f32) :
    k0_pay11 v1 v3 v5 v7 v9 v11 z = cols v1 v7 v3 v9 v5 v11 z := rfl

theorem pay12_eq (v1 : FVec F S128x3 .bf16) (v3 : FVec F S128x128 .bf16) (v5 : FVec F S6x128 .bf16) (v7 : FVec F S128x1 .f32)
    (v9 : FVec F S128x1 .f32) (v11 : FVec F S6x1 .f32) (z : Vec F S3x4096 .f32) :
    k0_pay12 v1 v3 v5 v7 v9 v11 z = cols v1 v7 v3 v9 v5 v11 z := rfl

theorem pay15_eq (v1 : FVec F S128x3 .bf16) (v3 : FVec F S128x128 .bf16) (v5 : FVec F S6x128 .bf16) (v7 : FVec F S128x1 .f32)
    (v9 : FVec F S128x1 .f32) (v11 : FVec F S6x1 .f32) (z : Vec F S3x4096 .f32) :
    k0_pay15 v5 v11 (k0_pay13 v1 v3 v7 v9 z) k0_pay14 = cols v1 v7 v3 v9 v5 v11 z := rfl

theorem pay16_eq (v1 : FVec F S128x3 .bf16) (v3 : FVec F S128x128 .bf16) (v5 : FVec F S6x128 .bf16) (v7 : FVec F S128x1 .f32)
    (v9 : FVec F S128x1 .f32) (v11 : FVec F S6x1 .f32) (z : Vec F S3x4096 .f32) :
    k0_pay16 v1 v3 v5 v7 v9 v11 z = cols v1 v7 v3 v9 v5 v11 z := rfl

theorem pay1_eq (v1 : FVec F S128x3 .bf16) (v3 : FVec F S128x128 .bf16) (v5 : FVec F S6x128 .bf16) (v7 : FVec F S128x1 .f32)
    (v9 : FVec F S128x1 .f32) (v11 : FVec F S6x1 .f32) (z : Vec F S3x4096 .f32) :
    k0_pay1 v3 v5 v9 v11 (k0_pay17 v1 v7 z) = cols v1 v7 v3 v9 v5 v11 z := rfl

theorem pay2_eq (v1 : FVec F S128x3 .bf16) (v3 : FVec F S128x128 .bf16) (v5 : FVec F S6x128 .bf16) (v7 : FVec F S128x1 .f32)
    (v9 : FVec F S128x1 .f32) (v11 : FVec F S6x1 .f32) (z : Vec F S3x4096 .f32) :
    k0_pay2 v1 v3 v5 v7 v9 v11 z = cols v1 v7 v3 v9 v5 v11 z := rfl

end Cert.KernelIdeal.Cols

end
-- ==== Proof.Spec.lean ====
/- The function both programs compute, on the extended reals: a perceptron with two hidden layers of width 128,
   each clamped below at zero, from 3 input features to 6 outputs. One row of the input gives one row of the
   output; nothing couples different rows. -/
import Idealize.ShloMosaic.PureOps.Ideal
import Idealize.ShloMosaic.Lib.ValueIdx

noncomputable section

namespace Cert.Mlp

open Idealize.ShloMosaic

/-- A dense layer before its activation: the inputs against one column of the weight matrix, summed, plus that
    column's bias. -/
def dense {n : ℕ} (x w : Fin n → EReal) (b : EReal) : EReal := (∑ k, x k * w k) + b

/-- The product of extended reals commutes, so it does not matter on which side of each product the weight stands. -/
theorem dense_comm {n : ℕ} (x w : Fin n → EReal) (b : EReal) : (∑ k, w k * x k) + b = dense x w b := by
  unfold dense
  exact congrArg (· + b) (Finset.sum_congr rfl fun k _ => mul_comm _ _)

/-- The activation: the larger of the value and zero. -/
def relu (x : EReal) : EReal := max x 0

/-- Output `o` of the network on one input row `z`: weights `W1` (3 × 128), `W2` (128 × 128), `W3` (128 × 6), indexed
    (input, output), and one bias per output of each layer. -/
def net (z : Fin 3 → EReal) (W1 : Fin 3 → Fin 128 → EReal) (b1 : Fin 128 → EReal) (W2 : Fin 128 → Fin 128 → EReal)
    (b2 : Fin 128 → EReal) (W3 : Fin 128 → Fin 6 → EReal) (b3 : Fin 6 → EReal) (o : Fin 6) : EReal :=
  dense (fun h => relu (dense (fun k => relu (dense z (fun i => W1 i k) (b1 k))) (fun k => W2 k h) (b2 h)))
    (fun h => W3 h o) (b3 o)

/-- The row-major position of entry (r, n) of a 4096 × 3072 array. -/
def flat (i : (⟨2, ![4096, 3072]⟩ : Shape).Idx) : ℕ := (i 0).val * 3072 + (i 1).val

theorem flat_lt (i : (⟨2, ![4096, 3072]⟩ : Shape).Idx) : flat i < 4096 * 3072 := by
  have h0 : (i 0).val < 4096 := (i 0).isLt
  have h1 : (i 1).val < 3072 := (i 1).isLt
  unfold flat; omega

/-- THE RESULT, as one function of the seven argument arrays. The 4096 × 3072 result is the 4096 × 512 × 6 array of
    outputs flattened on its last two axes: the entry at flat position `p` is output `p % 6` of the network on input
    row `(p / 3072, p / 6 % 512)`. -/
def whole (x0 : (⟨3, ![4096, 512, 3]⟩ : Shape).Idx → EReal) (x1 : (⟨2, ![3, 128]⟩ : Shape).Idx → EReal)
    (x2 : (⟨1, ![128]⟩ : Shape).Idx → EReal) (x3 : (⟨2, ![128, 128]⟩ : Shape).Idx → EReal)
    (x4 : (⟨1, ![128]⟩ : Shape).Idx → EReal) (x5 : (⟨2, ![128, 6]⟩ : Shape).Idx → EReal)
    (x6 : (⟨1, ![6]⟩ : Shape).Idx → EReal) : (⟨2, ![4096, 3072]⟩ : Shape).Idx → EReal := fun i =>
  net (fun c => x0 (Idealize.ShloMosaic.ValueIdx.ix3 (⟨flat i / 3072, by have := flat_lt i; omega⟩ : Fin 4096)
        (⟨flat i / 6 % 512, by omega⟩ : Fin 512) c))
    (fun c k => x1 (Idealize.ShloMosaic.ValueIdx.ix2 c k)) (fun k => x2 (Idealize.ShloMosaic.ValueIdx.ix1 k))
    (fun k h => x3 (Idealize.ShloMosaic.ValueIdx.ix2 k h)) (fun h => x4 (Idealize.ShloMosaic.ValueIdx.ix1 h))
    (fun h o => x5 (Idealize.ShloMosaic.ValueIdx.ix2 h o)) (fun o => x6 (Idealize.ShloMosaic.ValueIdx.ix1 o))
    (⟨flat i % 6, by omega⟩ : Fin 6)

end Cert.Mlp

end
-- ==== Proof.ColsAt.lean ====
/- The body's computation on one block of columns, read entry by entry on the extended reals: entry (o, q) of the
   result is the network's output o on column q of the block. A product of matrices into a zero accumulator is, at
   an entry, the sum of products over the contracted index; a bias column broadcast along the columns is the bias of
   the row; a change of float format is the identity. -/
import proofs.«119719_j86706799772094_2_alg».proof.Proof.Cols
import proofs.«119719_j86706799772094_2_alg».proof.Proof.Spec
import Idealize.ShloMosaic.Lib.ValueIdx
import Idealize.ShloMosaic.Lib.Pipeline.Value
import Idealize.ShloMosaic.PureOps.Ideal.Laws

noncomputable section

namespace Cert.KernelIdeal.Cols

open Idealize.ShloMosaic Idealize.SL.Sem Cert.KernelIdeal Cert.KernelIdeal.Gen Idealize.ShloMosaic.ValueIdx

/-! ## The three products' operand indices -/

theorem dotA_l0 (j : S128x4096.Idx) (q : dot_S128x3_S3x4096_S128x4096_1_0_0_1_n_n.contr.Idx) : (dot_S128x3_S3x4096_S128x4096_1_0_0_1_n_n.lhsIdx j q 0).val = (j 0).val := by
  unfold DotDims.lhsIdx
  rw [dif_neg (show ¬(0 : Fin S128x3.rank) ∈ dot_S128x3_S3x4096_S128x4096_1_0_0_1_n_n.lhsBatch by decide), dif_pos (show (0 : Fin S128x3.rank) ∈ dot_S128x3_S3x4096_S128x4096_1_0_0_1_n_n.lhsNonContracting by decide)]
  rfl
theorem dotA_l1 (j : S128x4096.Idx) (q : dot_S128x3_S3x4096_S128x4096_1_0_0_1_n_n.contr.Idx) : (dot_S128x3_S3x4096_S128x4096_1_0_0_1_n_n.lhsIdx j q 1).val = (q ⟨0, by decide⟩).val :=
  dot_S128x3_S3x4096_S128x4096_1_0_0_1_n_n.lhsIdx_val_of_single rfl j q
theorem dotA_r0 (j : S128x4096.Idx) (q : dot_S128x3_S3x4096_S128x4096_1_0_0_1_n_n.contr.Idx) : (dot_S128x3_S3x4096_S128x4096_1_0_0_1_n_n.rhsIdx j q 0).val = (q ⟨0, by decide⟩).val :=
  dot_S128x3_S3x4096_S128x4096_1_0_0_1_n_n.rhsIdx_val_of_single rfl j q
theorem dotA_r1 (j : S128x4096.Idx) (q : dot_S128x3_S3x4096_S128x4096_1_0_0_1_n_n.contr.Idx) : (dot_S128x3_S3x4096_S128x4096_1_0_0_1_n_n.rhsIdx j q 1).val = (j 1).val := by
  unfold DotDims.rhsIdx
  rw [dif_neg (show ¬(1 : Fin S3x4096.rank) ∈ dot_S128x3_S3x4096_S128x4096_1_0_0_1_n_n.rhsBatch by decide), dif_pos (show (1 : Fin S3x4096.rank) ∈ dot_S128x3_S3x4096_S128x4096_1_0_0_1_n_n.rhsNonContracting by decide)]
  rfl

theorem dotB_l0 (j : S128x4096.Idx) (q : dot_S128x128_S128x4096_S128x4096_1_0_0_1_n_n.contr.Idx) : (dot_S128x128_S128x4096_S128x4096_1_0_0_1_n_n.lhsIdx j q 0).val = (j 0).val := by
  unfold DotDims.lhsIdx
  rw [dif_neg (show ¬(0 : Fin S128x128.rank) ∈ dot_S128x128_S128x4096_S128x4096_1_0_0_1_n_n.lhsBatch by decide), dif_pos (show (0 : Fin S128x128.rank) ∈ dot_S128x128_S128x4096_S128x4096_1_0_0_1_n_n.lhsNonContracting by decide)]
  rfl
theorem dotB_l1 (j : S128x4096.Idx) (q : dot_S128x128_S128x4096_S128x4096_1_0_0_1_n_n.contr.Idx) : (dot_S128x128_S128x4096_S128x4096_1_0_0_1_n_n.lhsIdx j q 1).val = (q ⟨0, by decide⟩).val :=
  dot_S128x128_S128x4096_S128x4096_1_0_0_1_n_n.lhsIdx_val_of_single rfl j q
theorem dotB_r0 (j : S128x4096.Idx) (q : dot_S128x128_S128x4096_S128x4096_1_0_0_1_n_n.contr.Idx) : (dot_S128x128_S128x4096_S128x4096_1_0_0_1_n_n.rhsIdx j q 0).val = (q ⟨0, by decide⟩).val :=
  dot_S128x128_S128x4096_S128x4096_1_0_0_1_n_n.rhsIdx_val_of_single rfl j q
theorem dotB_r1 (j : S128x4096.Idx) (q : dot_S128x128_S128x4096_S128x4096_1_0_0_1_n_n.contr.Idx) : (dot_S128x128_S128x4096_S128x4096_1_0_0_1_n_n.rhsIdx j q 1).val = (j 1).val := by
  unfold DotDims.rhsIdx
  rw [dif_neg (show ¬(1 : Fin S128x4096.rank) ∈ dot_S128x128_S128x4096_S128x4096_1_0_0_1_n_n.rhsBatch by decide), dif_pos (show (1 : Fin S128x4096.rank) ∈ dot_S128x128_S128x4096_S128x4096_1_0_0_1_n_n.rhsNonContracting by decide)]
  rfl

theorem dotC_l0 (j : S6x4096.Idx) (q : dot_S6x128_S128x4096_S6x4096_1_0_0_1_n_n.contr.Idx) : (dot_S6x128_S128x4096_S6x4096_1_0_0_1_n_n.lhsIdx j q 0).val = (j 0).val := by
  unfold DotDims.lhsIdx
  rw [dif_neg (show ¬(0 : Fin S6x128.rank) ∈ dot_S6x128_S128x4096_S6x4096_1_0_0_1_n_n.lhsBatch by decide), dif_pos (show (0 : Fin S6x128.rank) ∈ dot_S6x128_S128x4096_S6x4096_1_0_0_1_n_n.lhsNonContracting by decide)]
  rfl
theorem dotC_l1 (j : S6x4096.Idx) (q : dot_S6x128_S128x4096_S6x4096_1_0_0_1_n_n.contr.Idx) : (dot_S6x128_S128x4096_S6x4096_1_0_0_1_n_n.lhsIdx j q 1).val = (q ⟨0, by decide⟩).val :=
  dot_S6x128_S128x4096_S6x4096_1_0_0_1_n_n.lhsIdx_val_of_single rfl j q
theorem dotC_r0 (j : S6x4096.Idx) (q : dot_S6x128_S128x4096_S6x4096_1_0_0_1_n_n.contr.Idx) : (dot_S6x128_S128x4096_S6x4096_1_0_0_1_n_n.rhsIdx j q 0).val = (q ⟨0, by decide⟩).val :=
  dot_S6x128_S128x4096_S6x4096_1_0_0_1_n_n.rhsIdx_val_of_single rfl j q
theorem dotC_r1 (j : S6x4096.Idx) (q : dot_S6x128_S128x4096_S6x4096_1_0_0_1_n_n.contr.Idx) : (dot_S6x128_S128x4096_S6x4096_1_0_0_1_n_n.rhsIdx j q 1).val = (j 1).val := by
  unfold DotDims.rhsIdx
  rw [dif_neg (show ¬(1 : Fin S128x4096.rank) ∈ dot_S6x128_S128x4096_S6x4096_1_0_0_1_n_n.rhsBatch by decide), dif_pos (show (1 : Fin S128x4096.rank) ∈ dot_S6x128_S128x4096_S6x4096_1_0_0_1_n_n.rhsNonContracting by decide)]
  rfl

/-- Entry (r, q) of the product into a zero accumulator: row r of the left factor against column q of the right. -/
theorem dotA_apply (w : FVec Ideal S128x3 .bf16) (x : FVec Ideal S3x4096 .bf16) (r : Fin 128) (q : Fin 4096) :
    matmul dot_S128x3_S3x4096_S128x4096_1_0_0_1_n_n none w x (constant (F := Ideal) S128x4096 .f32 0x00000000#32) (ix2 r q) = ∑ k : Fin 3, w (ix2 r k) * x (ix2 k q) := by
  refine (Ideal.matmul_constant_zero_apply dot_S128x3_S3x4096_S128x4096_1_0_0_1_n_n none w x (ix2 r q)).trans ?_
  rw [← Equiv.sum_comp (ValueIdx.contrEquiv1 dot_S128x3_S3x4096_S128x4096_1_0_0_1_n_n 3 rfl rfl).symm]
  refine Finset.sum_congr rfl fun k _ => ?_
  have hk := ValueIdx.contrEquiv1_symm_val dot_S128x3_S3x4096_S128x4096_1_0_0_1_n_n 3 rfl rfl k
  have el : dot_S128x3_S3x4096_S128x4096_1_0_0_1_n_n.lhsIdx (ix2 r q) ((ValueIdx.contrEquiv1 dot_S128x3_S3x4096_S128x4096_1_0_0_1_n_n 3 rfl rfl).symm k) = ix2 r k := funext fun a => Fin.ext (by
    match a with
    | ⟨0, _⟩ => exact dotA_l0 _ _
    | ⟨1, _⟩ => exact (dotA_l1 _ _).trans hk)
  have er : dot_S128x3_S3x4096_S128x4096_1_0_0_1_n_n.rhsIdx (ix2 r q) ((ValueIdx.contrEquiv1 dot_S128x3_S3x4096_S128x4096_1_0_0_1_n_n 3 rfl rfl).symm k) = ix2 k q := funext fun a => Fin.ext (by
    match a with
    | ⟨0, _⟩ => exact (dotA_r0 _ _).trans hk
    | ⟨1, _⟩ => exact dotA_r1 _ _)
  rw [el, er]

/-- Entry (r, q) of the product into a zero accumulator: row r of the left factor against column q of the right. -/
theorem dotB_apply (w : FVec Ideal S128x128 .bf16) (x : FVec Ideal S128x4096 .bf16) (r : Fin 128) (q : Fin 4096) :
    matmul dot_S128x128_S128x4096_S128x4096_1_0_0_1_n_n none w x (constant (F := Ideal) S128x4096 .f32 0x00000000#32) (ix2 r q) = ∑ k : Fin 128, w (ix2 r k) * x (ix2 k q) := by
  refine (Ideal.matmul_constant_zero_apply dot_S128x128_S128x4096_S128x4096_1_0_0_1_n_n none w x (ix2 r q)).trans ?_
  rw [← Equiv.sum_comp (ValueIdx.contrEquiv1 dot_S128x128_S128x4096_S128x4096_1_0_0_1_n_n 128 rfl rfl).symm]
  refine Finset.sum_congr rfl fun k _ => ?_
  have hk := ValueIdx.contrEquiv1_symm_val dot_S128x128_S128x4096_S128x4096_1_0_0_1_n_n 128 rfl rfl k
  have el : dot_S128x128_S128x4096_S128x4096_1_0_0_1_n_n.lhsIdx (ix2 r q) ((ValueIdx.contrEquiv1 dot_S128x128_S128x4096_S128x4096_1_0_0_1_n_n 128 rfl rfl).symm k) = ix2 r k := funext fun a => Fin.ext (by
    match a with
    | ⟨0, _⟩ => exact dotB_l0 _ _
    | ⟨1, _⟩ => exact (dotB_l1 _ _).trans hk)
  have er : dot_S128x128_S128x4096_S128x4096_1_0_0_1_n_n.rhsIdx (ix2 r q) ((ValueIdx.contrEquiv1 dot_S128x128_S128x4096_S128x4096_1_0_0_1_n_n 128 rfl rfl).symm k) = ix2 k q := funext fun a => Fin.ext (by
    match a with
    | ⟨0, _⟩ => exact (dotB_r0 _ _).trans hk
    | ⟨1, _⟩ => exact dotB_r1 _ _)
  rw [el, er]

/-- Entry (r, q) of the product into a zero accumulator: row r of the left factor against column q of the right. -/
theorem dotC_apply (w : FVec Ideal S6x128 .bf16) (x : FVec Ideal S128x4096 .bf16) (r : Fin 6) (q : Fin 4096) :
    matmul dot_S6x128_S128x4096_S6x4096_1_0_0_1_n_n none w x (constant (F := Ideal) S6x4096 .f32 0x00000000#32) (ix2 r q) = ∑ k : Fin 128, w (ix2 r k) * x (ix2 k q) := by
  refine (Ideal.matmul_constant_zero_apply dot_S6x128_S128x4096_S6x4096_1_0_0_1_n_n none w x (ix2 r q)).trans ?_
  rw [← Equiv.sum_comp (ValueIdx.contrEquiv1 dot_S6x128_S128x4096_S6x4096_1_0_0_1_n_n 128 rfl rfl).symm]
  refine Finset.sum_congr rfl fun k _ => ?_
  have hk := ValueIdx.contrEquiv1_symm_val dot_S6x128_S128x4096_S6x4096_1_0_0_1_n_n 128 rfl rfl k
  have el : dot_S6x128_S128x4096_S6x4096_1_0_0_1_n_n.lhsIdx (ix2 r q) ((ValueIdx.contrEquiv1 dot_S6x128_S128x4096_S6x4096_1_0_0_1_n_n 128 rfl rfl).symm k) = ix2 r k := funext fun a => Fin.ext (by
    match a with
    | ⟨0, _⟩ => exact dotC_l0 _ _
    | ⟨1, _⟩ => exact (dotC_l1 _ _).trans hk)
  have er : dot_S6x128_S128x4096_S6x4096_1_0_0_1_n_n.rhsIdx (ix2 r q) ((ValueIdx.contrEquiv1 dot_S6x128_S128x4096_S6x4096_1_0_0_1_n_n 128 rfl rfl).symm k) = ix2 k q := funext fun a => Fin.ext (by
    match a with
    | ⟨0, _⟩ => exact (dotC_r0 _ _).trans hk
    | ⟨1, _⟩ => exact dotC_r1 _ _)
  rw [el, er]

/-! ## A bias column along the columns -/

theorem bias128_apply (b : FVec Ideal S128x1 .f32) (r : Fin 128) (q : Fin 4096) :
    broadcastTo S128x4096 b broadcasts_S128x1_S128x4096 (ix2 r q) = b (ix2 r 0) :=
  broadcastTo_apply b broadcasts_S128x1_S128x4096 (ix2 r q) (ix2 r 0) (fun a => match a with
    | ⟨0, _⟩ => by show r.val = if (128 : Nat) = 1 then 0 else r.val; rw [if_neg (by decide)]
    | ⟨1, _⟩ => by show (0 : Nat) = if (1 : Nat) = 1 then 0 else q.val; rw [if_pos rfl])

theorem bias6_apply (b : FVec Ideal S6x1 .f32) (r : Fin 6) (q : Fin 4096) :
    broadcastTo S6x4096 b broadcasts_S6x1_S6x4096 (ix2 r q) = b (ix2 r 0) :=
  broadcastTo_apply b broadcasts_S6x1_S6x4096 (ix2 r q) (ix2 r 0) (fun a => match a with
    | ⟨0, _⟩ => by show r.val = if (6 : Nat) = 1 then 0 else r.val; rw [if_neg (by decide)]
    | ⟨1, _⟩ => by show (0 : Nat) = if (1 : Nat) = 1 then 0 else q.val; rw [if_pos rfl])

/-! ## The layers at an entry -/

theorem lin1_apply (w : FVec Ideal S128x3 .bf16) (b : FVec Ideal S128x1 .f32) (z : FVec Ideal S3x4096 .bf16) (r : Fin 128) (q : Fin 4096) :
    lin1 w b z (ix2 r q) = Cert.Mlp.dense (fun i : Fin 3 => z (ix2 i q)) (fun i => w (ix2 r i)) (b (ix2 r 0)) := by
  refine Eq.trans ?_ (Cert.Mlp.dense_comm _ _ _)
  show matmul dot_S128x3_S3x4096_S128x4096_1_0_0_1_n_n none w z (constant (F := Ideal) S128x4096 .f32 0x00000000#32) (ix2 r q)
      + broadcastTo S128x4096 b broadcasts_S128x1_S128x4096 (ix2 r q) = _
  rw [dotA_apply, bias128_apply]

theorem lin2_apply (w : FVec Ideal S128x128 .bf16) (b : FVec Ideal S128x1 .f32) (h : FVec Ideal S128x4096 .bf16) (r : Fin 128) (q : Fin 4096) :
    lin2 w b h (ix2 r q) = Cert.Mlp.dense (fun k : Fin 128 => h (ix2 k q)) (fun k => w (ix2 r k)) (b (ix2 r 0)) := by
  refine Eq.trans ?_ (Cert.Mlp.dense_comm _ _ _)
  show matmul dot_S128x128_S128x4096_S128x4096_1_0_0_1_n_n none w h (constant (F := Ideal) S128x4096 .f32 0x00000000#32) (ix2 r q)
      + broadcastTo S128x4096 b broadcasts_S128x1_S128x4096 (ix2 r q) = _
  rw [dotB_apply, bias128_apply]

theorem lin3_apply (w : FVec Ideal S6x128 .bf16) (b : FVec Ideal S6x1 .f32) (h : FVec Ideal S128x4096 .bf16) (r : Fin 6) (q : Fin 4096) :
    lin3 w b h (ix2 r q) = Cert.Mlp.dense (fun k : Fin 128 => h (ix2 k q)) (fun k => w (ix2 r k)) (b (ix2 r 0)) := by
  refine Eq.trans ?_ (Cert.Mlp.dense_comm _ _ _)
  show matmul dot_S6x128_S128x4096_S6x4096_1_0_0_1_n_n none w h (constant (F := Ideal) S6x4096 .f32 0x00000000#32) (ix2 r q)
      + broadcastTo S6x4096 b broadcasts_S6x1_S6x4096 (ix2 r q) = _
  rw [dotC_apply, bias6_apply]

/-- The activation at an entry: the word of all zero bits is the real zero. -/
theorem act_apply (x : FVec Ideal S128x4096 .f32) (j : S128x4096.Idx) : act x j = Cert.Mlp.relu (x j) := by
  show max (x j) (Ideal.ofBits .f32 0x00000000#32) = max (x j) 0
  rw [Ideal.ofBits_zero_f32]

/-- ENTRY (o, q) OF THE BODY'S RESULT on a block of columns is the network's output `o` on column `q`: the
    kernel's weights are the transposes, so entry (output, input) of each stands where the network has (input, output). -/
theorem cols_apply (w1 : FVec Ideal S128x3 .bf16) (b1 : FVec Ideal S128x1 .f32) (w2 : FVec Ideal S128x128 .bf16) (b2 : FVec Ideal S128x1 .f32)
    (w3 : FVec Ideal S6x128 .bf16) (b3 : FVec Ideal S6x1 .f32) (z : Vec Ideal S3x4096 .f32) (o : Fin 6) (q : Fin 4096) :
    cols w1 b1 w2 b2 w3 b3 z (ix2 o q)
      = Cert.Mlp.net (fun i => z (ix2 i q)) (fun i k => w1 (ix2 k i)) (fun k => b1 (ix2 k 0)) (fun k h => w2 (ix2 h k))
          (fun h => b2 (ix2 h 0)) (fun h o => w3 (ix2 o h)) (fun o => b3 (ix2 o 0)) o := by
  unfold cols Cert.Mlp.net
  rw [lin3_apply]
  refine congrArg (fun f => Cert.Mlp.dense f _ _) (funext fun h => ?_)
  rw [act_apply, lin2_apply]
  refine congrArg (fun f => Cert.Mlp.relu (Cert.Mlp.dense f _ _)) (funext fun k => ?_)
  rw [act_apply, lin1_apply]
  rw [shapeCast_self]
  rfl

end Cert.KernelIdeal.Cols

end
-- ==== Proof.Tile.lean ====
/- What one grid point leaves in the output's staging buffer: the body stores eight blocks of 4096 columns side by
   side, block j holding the network's outputs on columns 4096·j … 4096·j + 4095 of the input tile. So the tile of
   outputs is one function of the tile of inputs, column by column. -/
import proofs.«119719_j86706799772094_2_alg».proof.Proof.ColsAt
import proofs.«119719_j86706799772094_2_alg».proof.Proof.Gen.KernelIdeal.Frame
import Idealize.ShloMosaic.Lib.Tactic

set_option maxRecDepth 16384

noncomputable section

namespace Cert.KernelIdeal.Tile

open Idealize.ShloMosaic Idealize.ShloMosaic.TcCoe Idealize.SL.Sem Cert.KernelIdeal Cert.KernelIdeal.Gen Cert.KernelIdeal.Cols
open Idealize.ShloMosaic.ValueIdx

theorem hz : (![0, 0] : Fin 2 → Nat) = fun _ => 0 := funext fun a => by fin_cases a <;> rfl

/-- The weights and biases enter the body through casts to their own shapes, which change nothing. -/
theorem pay3_eq (v : Vec Ideal S128x3 .bf16) : k0_pay3 v = v := shapeCast_self _ _
theorem pay4_eq (v : Vec Ideal S128x128 .bf16) : k0_pay4 v = v := shapeCast_self _ _
theorem pay5_eq (v : Vec Ideal S6x128 .bf16) : k0_pay5 v = v := shapeCast_self _ _
theorem pay6_eq (v : Vec Ideal S128x1 .f32) : k0_pay6 v = v := shapeCast_self _ _
theorem pay7_eq (v : Vec Ideal S128x1 .f32) : k0_pay7 v = v := shapeCast_self _ _
theorem pay8_eq (v : Vec Ideal S6x1 .f32) : k0_pay8 v = v := shapeCast_self _ _

/-- Output `o` of the network on column `p` of a tile of inputs (features × columns), with the kernel's transposed
    weights and column biases. -/
def outAt (x0 : Vec Ideal S3x32768 .f32) (x1 : Vec Ideal S128x3 .bf16) (x2 : Vec Ideal S128x1 .f32) (x3 : Vec Ideal S128x128 .bf16) (x4 : Vec Ideal S128x1 .f32) (x5 : Vec Ideal S6x128 .bf16) (x6 : Vec Ideal S6x1 .f32) (o : Fin 6) (p : Fin 32768) : EReal :=
  Cert.Mlp.net (fun i => x0 (ix2 i p)) (fun i k => x1 (ix2 k i)) (fun k => x2 (ix2 k 0)) (fun k h => x3 (ix2 h k))
    (fun h => x4 (ix2 h 0)) (fun h o => x5 (ix2 o h)) (fun o => x6 (ix2 o 0)) o

/-- The tile of outputs (outputs × columns). -/
def out (x0 : Vec Ideal S3x32768 .f32) (x1 : Vec Ideal S128x3 .bf16) (x2 : Vec Ideal S128x1 .f32) (x3 : Vec Ideal S128x128 .bf16) (x4 : Vec Ideal S128x1 .f32) (x5 : Vec Ideal S6x128 .bf16) (x6 : Vec Ideal S6x1 .f32) : Vec Ideal S6x32768 .f32 := fun y => outAt x0 x1 x2 x3 x4 x5 x6 (y 0) (y 1)

/-- The body's computation on the block of columns starting at `off` is that block of the tile of outputs. -/
theorem block_eq (x0 : Vec Ideal S3x32768 .f32) (x1 : Vec Ideal S128x3 .bf16) (x2 : Vec Ideal S128x1 .f32) (x3 : Vec Ideal S128x128 .bf16) (x4 : Vec Ideal S128x1 .f32) (x5 : Vec Ideal S6x128 .bf16) (x6 : Vec Ideal S6x1 .f32) (off : Nat)
    (inb1 : ∀ a, (![0, off] : Fin 2 → Nat) a + (![3, 4096] : Fin 2 → Nat) a ≤ S3x32768.size a)
    (inb2 : ∀ a, (![0, off] : Fin 2 → Nat) a + (![6, 4096] : Fin 2 → Nat) a ≤ S6x32768.size a) (x : S6x4096.Idx) :
    cols x1 x2 x3 x4 x5 x6 (View.ld x0 (Rect.unit (s := S3x32768) ![0, off] ![3, 4096] inb1)) x
      = out x0 x1 x2 x3 x4 x5 x6 ((Rect.unit (s := S6x32768) ![0, off] ![6, 4096] inb2).emb x) := by
  obtain ⟨o, q, rfl⟩ : ∃ (o : Fin 6) (q : Fin 4096), x = ix2 o q := ⟨x 0, x 1, eq_ix2 x⟩
  have hoff : off + 4096 ≤ 32768 := inb2 1
  have hq : q.val < 4096 := q.isLt
  have e : (Rect.unit (s := S6x32768) ![0, off] ![6, 4096] inb2).emb (ix2 o q) = ix2 o (⟨off + q.val, by omega⟩ : Fin 32768) :=
    funext fun a => Fin.ext (by
      match a with
      | ⟨0, _⟩ => show 0 + 1 * o.val = o.val; omega
      | ⟨1, _⟩ => show off + 1 * q.val = off + q.val; omega)
  rw [e, cols_apply]
  show Cert.Mlp.net _ _ _ _ _ _ _ o = outAt x0 x1 x2 x3 x4 x5 x6 o ⟨off + q.val, _⟩
  unfold outAt
  refine congrArg (fun f => Cert.Mlp.net f _ _ _ _ _ _ o) (funext fun i => ?_)
  show x0 _ = x0 _
  refine congrArg x0 (funext fun a => Fin.ext ?_)
  match a with
  | ⟨0, _⟩ => show 0 + 1 * i.val = i.val; omega
  | ⟨1, _⟩ => show off + 1 * q.val = off + q.val; omega

/-- WHAT THE BODY LEAVES in the output's staging buffer, whatever it held: the tile of outputs of the input blocks. -/
theorem out_eq (c : Dev nD) (i : grid0.Coords) (arg1 : Memref sig .tc .vmem S3x32768 .f32) (harg1 : arg1.IsWhole) (arg2 : Memref sig .tc .vmem S128x3 .bf16) (harg2 : arg2.IsWhole) (arg3 : Memref sig .tc .vmem S128x1 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S6x128 .bf16) (harg6 : arg6.IsWhole) (arg7 : Memref sig .tc .vmem S6x1 .f32) (harg7 : arg7.IsWhole) (arg8 : Memref sig .tc .vmem S6x32768 .f32) (harg8 : arg8.IsWhole)
    (x0 : Vec Ideal S3x32768 .f32) (x1 : Vec Ideal S128x3 .bf16) (x2 : Vec Ideal S128x1 .f32) (x3 : Vec Ideal S128x128 .bf16) (x4 : Vec Ideal S128x1 .f32) (x5 : Vec Ideal S6x128 .bf16) (x6 : Vec Ideal S6x1 .f32) :
    out0_A_7 c i arg1 harg1 arg2 harg2 arg3 harg3 arg4 harg4 arg5 harg5 arg6 harg6 arg7 harg7 arg8 harg8 x0 x1 x2 x3 x4 x5 x6 = out x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  funext y
  refine View.canon_apply_of_pieces (out x0 x1 x2 x3 x4 x5 x6) _ ?_ y (cover0_A_7 c i arg1 harg1 arg2 harg2 arg3 harg3 arg4 harg4 arg5 harg5 arg6 harg6 arg7 harg7 arg8 harg8 x0 x1 x2 x3 x4 x5 x6 y)
  unfold kernelRun0_A
  dsimp only
  sl_unfold_words
  simp only [View.readAt_eq_ld, harg1.read_unread, harg2.read_unread, harg3.read_unread, harg4.read_unread, harg5.read_unread,
    harg6.read_unread, harg7.read_unread, View.ld_unit_zero (S := S128x3) hz, View.ld_unit_zero (S := S128x128) hz,
    View.ld_unit_zero (S := S6x128) hz, View.ld_unit_zero (S := S128x1) hz, View.ld_unit_zero (S := S6x1) hz,
    pay3_eq, pay4_eq, pay5_eq, pay6_eq, pay7_eq, pay8_eq, pay9_eq, pay10_eq, pay11_eq, pay12_eq, pay15_eq, pay16_eq, pay1_eq, pay2_eq]
  intro p hp
  simp only [List.mem_cons, List.not_mem_nil, or_false] at hp
  rcases hp with rfl | rfl | rfl | rfl | rfl | rfl | rfl | rfl
  all_goals exact fun x => block_eq x0 x1 x2 x3 x4 x5 x6 _ (by decide) (by decide) x

end Cert.KernelIdeal.Tile

end
-- ==== Proof.Entry.lean ====
/- The arrays the kernel's region finds. Before the region the host lines lay the arguments out for the kernel:
   the input's rows flattened to one axis and then transposed (features × rows), each weight matrix transposed
   (outputs × inputs), each bias turned into a column. Each of these arrays, read at an entry, is one entry of an
   argument. -/
import proofs.«119719_j86706799772094_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Idealize.ShloMosaic Idealize.ShloMosaic.TcCoe Idealize.SL.Sem Cert.KernelIdeal Cert.KernelIdeal.Gen
open Idealize.ShloMosaic.ValueIdx Idealize.ShloMosaic.StableHlo

variable (m : (ℓ : Loc nD τ sig) → Buf (Elt Ideal) ℓ)

/-! ## The arrays as terms of the arguments -/

theorem V_v1 (c : Dev nD) : V m c main_v1 = transpose S3x2097152 [1, 0]
    (shapeCast S2097152x3 (m ((c : Thread nD τ).loc main_arg0)) shapeCasts_S4096x512x3_S2097152x3) transposes_S2097152x3_S3x2097152_1_0 := by
  show StableHlo.after hostOps0 (fun b => m (c, b)) (Proc.devRef .tc main_v1) = _
  after_results <;> rfl

theorem V_v3 (c : Dev nD) : V m c main_v3 = truncf (F := Ideal) .bf16 (transpose S128x3 [1, 0] (m ((c : Thread nD τ).loc main_arg1)) transposes_S3x128_S128x3_1_0) bitsLt_bf16_f32 := by
  show StableHlo.after hostOps0 (fun b => m (c, b)) (Proc.devRef .tc main_v3) = _
  after_results <;> rfl

theorem V_v5 (c : Dev nD) : V m c main_v5 = truncf (F := Ideal) .bf16 (transpose S128x128 [1, 0] (m ((c : Thread nD τ).loc main_arg3)) transposes_S128x128_S128x128_1_0) bitsLt_bf16_f32 := by
  show StableHlo.after hostOps0 (fun b => m (c, b)) (Proc.devRef .tc main_v5) = _
  after_results <;> rfl

theorem V_v7 (c : Dev nD) : V m c main_v7 = truncf (F := Ideal) .bf16 (transpose S6x128 [1, 0] (m ((c : Thread nD τ).loc main_arg5)) transposes_S128x6_S6x128_1_0) bitsLt_bf16_f32 := by
  show StableHlo.after hostOps0 (fun b => m (c, b)) (Proc.devRef .tc main_v7) = _
  after_results <;> rfl

theorem V_v8 (c : Dev nD) : V m c main_v8 = shapeCast S128x1 (m ((c : Thread nD τ).loc main_arg2)) shapeCasts_S128_S128x1 := by
  show StableHlo.after hostOps0 (fun b => m (c, b)) (Proc.devRef .tc main_v8) = _
  after_results <;> rfl

theorem V_v9 (c : Dev nD) : V m c main_v9 = shapeCast S128x1 (m ((c : Thread nD τ).loc main_arg4)) shapeCasts_S128_S128x1 := by
  show StableHlo.after hostOps0 (fun b => m (c, b)) (Proc.devRef .tc main_v9) = _
  after_results <;> rfl

theorem V_v10 (c : Dev nD) : V m c main_v10 = shapeCast S6x1 (m ((c : Thread nD τ).loc main_arg6)) shapeCasts_S6_S6x1 := by
  show StableHlo.after hostOps0 (fun b => m (c, b)) (Proc.devRef .tc main_v10) = _
  after_results <;> rfl

/-! ## The arrays at an entry -/

/-- Row `r` of the flattened input is row `(r / 512, r % 512)` of the input; the transpose puts the feature first. -/
theorem v1_apply (c : Dev nD) (i : Fin 3) (r : Fin 2097152) :
    V m c main_v1 (ix2 i r) = (m ((c : Thread nD τ).loc main_arg0)) (ix3 (⟨r.val / 512, by omega⟩ : Fin 4096) (⟨r.val % 512, by omega⟩ : Fin 512) i) := by
  rw [V_v1]
  refine (transpose_apply [1, 0] _ transposes_S2097152x3_S3x2097152_1_0 (ix2 i r) (ix2 r i) (fun b => match b with
    | ⟨0, _⟩ => rfl
    | ⟨1, _⟩ => rfl)).trans ?_
  refine shapeCast_apply _ shapeCasts_S4096x512x3_S2097152x3 (ix2 r i) _ ?_
  rewrite [Shape.rowMajor_val_three, Shape.rowMajor_val_two]
  show (r.val / 512 * 512 + r.val % 512) * 3 + i.val = r.val * 3 + i.val
  omega

theorem v3_apply (c : Dev nD) (k : Fin 128) (i : Fin 3) : V m c main_v3 (ix2 k i) = (m ((c : Thread nD τ).loc main_arg1)) (ix2 i k) := by
  rw [V_v3]
  exact transpose_apply [1, 0] _ transposes_S3x128_S128x3_1_0 (ix2 k i) (ix2 i k) (fun b => match b with
    | ⟨0, _⟩ => rfl
    | ⟨1, _⟩ => rfl)

theorem v5_apply (c : Dev nD) (h : Fin 128) (k : Fin 128) : V m c main_v5 (ix2 h k) = (m ((c : Thread nD τ).loc main_arg3)) (ix2 k h) := by
  rw [V_v5]
  exact transpose_apply [1, 0] _ transposes_S128x128_S128x128_1_0 (ix2 h k) (ix2 k h) (fun b => match b with
    | ⟨0, _⟩ => rfl
    | ⟨1, _⟩ => rfl)

theorem v7_apply (c : Dev nD) (o : Fin 6) (h : Fin 128) : V m c main_v7 (ix2 o h) = (m ((c : Thread nD τ).loc main_arg5)) (ix2 h o) := by
  rw [V_v7]
  exact transpose_apply [1, 0] _ transposes_S128x6_S6x128_1_0 (ix2 o h) (ix2 h o) (fun b => match b with
    | ⟨0, _⟩ => rfl
    | ⟨1, _⟩ => rfl)

theorem v8_apply (c : Dev nD) (k : Fin 128) : V m c main_v8 (ix2 k (0 : Fin 1)) = (m ((c : Thread nD τ).loc main_arg2)) (ix1 k) := by
  rw [V_v8]
  refine shapeCast_apply _ shapeCasts_S128_S128x1 (ix2 k (0 : Fin 1)) (ix1 k) ?_
  rewrite [Shape.rowMajor_val_one, Shape.rowMajor_val_two]
  show k.val = k.val * 1 + 0
  omega

theorem v9_apply (c : Dev nD) (k : Fin 128) : V m c main_v9 (ix2 k (0 : Fin 1)) = (m ((c : Thread nD τ).loc main_arg4)) (ix1 k) := by
  rw [V_v9]
  refine shapeCast_apply _ shapeCasts_S128_S128x1 (ix2 k (0 : Fin 1)) (ix1 k) ?_
  rewrite [Shape.rowMajor_val_one, Shape.rowMajor_val_two]
  show k.val = k.val * 1 + 0
  omega

theorem v10_apply (c : Dev nD) (o : Fin 6) : V m c main_v10 (ix2 o (0 : Fin 1)) = (m ((c : Thread nD τ).loc main_arg6)) (ix1 o) := by
  rw [V_v10]
  refine shapeCast_apply _ shapeCasts_S6_S6x1 (ix2 o (0 : Fin 1)) (ix1 o) ?_
  rewrite [Shape.rowMajor_val_one, Shape.rowMajor_val_two]
  show o.val = o.val * 1 + 0
  omega

end Cert.KernelIdeal.Entry

end
-- ==== Proof.Whole.lean ====
/- From the tiles to the array, and from the array to the result. Grid point t reads columns 32768·t … 32768·t + 32767
   of the transposed input and every weight and bias whole, and writes the same columns of the transposed output; the
   64 tiles cover the output once. After the region the host lines transpose the output back and flatten it. -/
import proofs.«119719_j86706799772094_2_alg».proof.Proof.Tile
import proofs.«119719_j86706799772094_2_alg».proof.Proof.Entry
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.SL.Sem Cert.KernelIdeal Cert.KernelIdeal.Gen
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The transposed output (outputs × rows) as a function of the arrays the region finds: entry (o, r) is the
    network's output `o` on column `r` of the transposed input. -/
def outTAt (A0 : S3x2097152.Idx → EReal) (A1 : S128x3.Idx → EReal) (A2 : S128x1.Idx → EReal) (A3 : S128x128.Idx → EReal) (A4 : S128x1.Idx → EReal) (A5 : S6x128.Idx → EReal) (A6 : S6x1.Idx → EReal) (o : Fin 6) (r : Fin 2097152) : EReal :=
  Cert.Mlp.net (fun i => A0 (ix2 i r)) (fun i k => A1 (ix2 k i)) (fun k => A2 (ix2 k 0)) (fun k h => A3 (ix2 h k))
    (fun h => A4 (ix2 h 0)) (fun h o => A5 (ix2 o h)) (fun o => A6 (ix2 o 0)) o

/-- The same as an array. -/
def outT (A0 : S3x2097152.Idx → EReal) (A1 : S128x3.Idx → EReal) (A2 : S128x1.Idx → EReal) (A3 : S128x128.Idx → EReal) (A4 : S128x1.Idx → EReal) (A5 : S6x128.Idx → EReal) (A6 : S6x1.Idx → EReal) : S6x2097152.Idx → EReal := fun j => outTAt A0 A1 A2 A3 A4 A5 A6 (j 0) (j 1)

/-- A tile of outputs computed from blocks that are the tile's columns of the input and the whole weights and
    biases is that tile of `outT`. -/
theorem tile_eq (A0 : S3x2097152.Idx → EReal) (A1 : S128x3.Idx → EReal) (A2 : S128x1.Idx → EReal) (A3 : S128x128.Idx → EReal) (A4 : S128x1.Idx → EReal) (A5 : S6x128.Idx → EReal) (A6 : S6x1.Idx → EReal)
    (x0 : Vec Ideal S3x32768 .f32) (tt : Nat)
    (h0 : ∀ (i : Fin 3) (p : Fin 32768) (r : Fin 2097152), r.val = tt * 32768 + p.val → x0 (ix2 i p) = A0 (ix2 i r))
    (o : Fin 6) (p : Fin 32768) (r : Fin 2097152) (hr : r.val = tt * 32768 + p.val) :
    Tile.outAt x0 A1 A2 A3 A4 A5 A6 o p = outTAt A0 A1 A2 A3 A4 A5 A6 o r := by
  unfold Tile.outAt outTAt
  exact congrArg (fun f => Cert.Mlp.net f (fun i k => A1 (ix2 k i)) (fun k => A2 (ix2 k 0)) (fun k h => A3 (ix2 h k))
    (fun h => A4 (ix2 h 0)) (fun h o => A5 (ix2 o h)) (fun o => A6 (ix2 o 0)) o) (funext fun i => h0 i p r hr)

/-- The printed index maps, decided over the 64 grid points: the input's and the output's block index is (0, t), the
    weights' and biases' (0, 0). -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = t.val) :=
  (by decide +kernel : ∀ t : Fin grid0.N, _)

theorem lt64 (t : Fin cfg0.N) : t.val < 64 := by
  have h := t.isLt
  have hN : cfg0.N = 64 := N_0
  omega

/-! ## The input blocks -/

/-- The input's block at point t: its columns 32768·t and on. -/
theorem blk0 (c : Dev nD) (t : Fin cfg0.N) (i : Fin 3) (p : Fin 32768) (r : Fin 2097152) (hr : r.val = t.val * 32768 + p.val) :
    (iblk m c 0 t : Vec Ideal S3x32768 .f32) (ix2 i p) = V m c main_v1 (ix2 i r) := by
  have e0 : win0_0.index t (0 : Fin 2) = 0 := (idx_facts t).1.1
  have e1 : win0_0.index t (1 : Fin 2) = t.val := (idx_facts t).1.2
  unfold iblk
  rw [View.read_apply]
  show V m c main_v1 _ = V m c main_v1 _
  refine congrArg (V m c main_v1) (funext fun a => Fin.ext ?_)
  match a with
  | ⟨0, _⟩ => show win0_0.index t (0 : Fin 2) * 3 + 1 * i.val = i.val; rw [e0]; omega
  | ⟨1, _⟩ => show win0_0.index t (1 : Fin 2) * 32768 + 1 * p.val = r.val; rw [e1, hr]; omega

theorem blk1 (c : Dev nD) (t : Fin cfg0.N) : (iblk m c 1 t : Vec Ideal S128x3 .bf16) = V m c main_v3 := by
  have e0 : win0_1.index t (0 : Fin 2) = 0 := (idx_facts t).2.1.1
  have e1 : win0_1.index t (1 : Fin 2) = 0 := (idx_facts t).2.1.2
  funext y
  unfold iblk
  rw [View.read_apply]
  show V m c main_v3 _ = V m c main_v3 y
  refine congrArg (V m c main_v3) (funext fun a => Fin.ext ?_)
  match a with
  | ⟨0, _⟩ => show win0_1.index t (0 : Fin 2) * 128 + 1 * (y 0).val = (y 0).val; rw [e0]; omega
  | ⟨1, _⟩ => show win0_1.index t (1 : Fin 2) * 3 + 1 * (y 1).val = (y 1).val; rw [e1]; omega

theorem blk2 (c : Dev nD) (t : Fin cfg0.N) : (iblk m c 2 t : Vec Ideal S128x1 .f32) = V m c main_v8 := by
  have e0 : win0_2.index t (0 : Fin 2) = 0 := (idx_facts t).2.2.1.1
  have e1 : win0_2.index t (1 : Fin 2) = 0 := (idx_facts t).2.2.1.2
  funext y
  unfold iblk
  rw [View.read_apply]
  show V m c main_v8 _ = V m c main_v8 y
  refine congrArg (V m c main_v8) (funext fun a => Fin.ext ?_)
  match a with
  | ⟨0, _⟩ => show win0_2.index t (0 : Fin 2) * 128 + 1 * (y 0).val = (y 0).val; rw [e0]; omega
  | ⟨1, _⟩ => show win0_2.index t (1 : Fin 2) * 1 + 1 * (y 1).val = (y 1).val; rw [e1]; omega

theorem blk3 (c : Dev nD) (t : Fin cfg0.N) : (iblk m c 3 t : Vec Ideal S128x128 .bf16) = V m c main_v5 := by
  have e0 : win0_3.index t (0 : Fin 2) = 0 := (idx_facts t).2.2.2.1.1
  have e1 : win0_3.index t (1 : Fin 2) = 0 := (idx_facts t).2.2.2.1.2
  funext y
  unfold iblk
  rw [View.read_apply]
  show V m c main_v5 _ = V m c main_v5 y
  refine congrArg (V m c main_v5) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blk4 (c : Dev nD) (t : Fin cfg0.N) : (iblk m c 4 t : Vec Ideal S128x1 .f32) = V m c main_v9 := by
  have e0 : win0_4.index t (0 : Fin 2) = 0 := (idx_facts t).2.2.2.2.1.1
  have e1 : win0_4.index t (1 : Fin 2) = 0 := (idx_facts t).2.2.2.2.1.2
  funext y
  unfold iblk
  rw [View.read_apply]
  show V m c main_v9 _ = V m c main_v9 y
  refine congrArg (V m c main_v9) (funext fun a => Fin.ext ?_)
  match a with
  | ⟨0, _⟩ => show win0_4.index t (0 : Fin 2) * 128 + 1 * (y 0).val = (y 0).val; rw [e0]; omega
  | ⟨1, _⟩ => show win0_4.index t (1 : Fin 2) * 1 + 1 * (y 1).val = (y 1).val; rw [e1]; omega

theorem blk5 (c : Dev nD) (t : Fin cfg0.N) : (iblk m c 5 t : Vec Ideal S6x128 .bf16) = V m c main_v7 := by
  have e0 : win0_5.index t (0 : Fin 2) = 0 := (idx_facts t).2.2.2.2.2.1.1
  have e1 : win0_5.index t (1 : Fin 2) = 0 := (idx_facts t).2.2.2.2.2.1.2
  funext y
  unfold iblk
  rw [View.read_apply]
  show V m c main_v7 _ = V m c main_v7 y
  refine congrArg (V m c main_v7) (funext fun a => Fin.ext ?_)
  match a with
  | ⟨0, _⟩ => show win0_5.index t (0 : Fin 2) * 6 + 1 * (y 0).val = (y 0).val; rw [e0]; omega
  | ⟨1, _⟩ => show win0_5.index t (1 : Fin 2) * 128 + 1 * (y 1).val = (y 1).val; rw [e1]; omega

theorem blk6 (c : Dev nD) (t : Fin cfg0.N) : (iblk m c 6 t : Vec Ideal S6x1 .f32) = V m c main_v10 := by
  have e0 : win0_6.index t (0 : Fin 2) = 0 := (idx_facts t).2.2.2.2.2.2.1.1
  have e1 : win0_6.index t (1 : Fin 2) = 0 := (idx_facts t).2.2.2.2.2.2.1.2
  funext y
  unfold iblk
  rw [View.read_apply]
  show V m c main_v10 _ = V m c main_v10 y
  refine congrArg (V m c main_v10) (funext fun a => Fin.ext ?_)
  match a with
  | ⟨0, _⟩ => show win0_6.index t (0 : Fin 2) * 6 + 1 * (y 0).val = (y 0).val; rw [e0]; omega
  | ⟨1, _⟩ => show win0_6.index t (1 : Fin 2) * 1 + 1 * (y 1).val = (y 1).val; rw [e1]; omega

/-! ## The output array -/

/-- WHAT POINT t WRITES BACK is block t of `outT` of the arrays the region finds. -/
theorem flushed_eq (c : Dev nD) (t : Fin cfg0.N) :
    (dats m 0 c).flushed 7 t = ((cfg0.win 7).blk t).view.read (Elt Ideal) (outT (V m c main_v1) (V m c main_v3) (V m c main_v8) (V m c main_v5) (V m c main_v9) (V m c main_v7) (V m c main_v10)) := by
  show (cfg0.win 7).cut (grid0.coords t) ((dats m 0 c).after 7 t) = _
  rw [after0_7]
  unfold outsAt0
  rw [Tile.out_eq]
  have e70 : win0_7.index t (0 : Fin 2) = 0 := (idx_facts t).2.2.2.2.2.2.2.1
  have e71 : win0_7.index t (1 : Fin 2) = t.val := (idx_facts t).2.2.2.2.2.2.2.2
  have ht := lt64 t
  funext y
  obtain ⟨o, p, rfl⟩ : ∃ (o : Fin 6) (p : Fin 32768), y = ix2 o p := ⟨y 0, y 1, eq_ix2 y⟩
  have hp : p.val < 32768 := p.isLt
  have e : ((cfg0.win 7).blk t).view.emb (ix2 o p) = ix2 o (⟨t.val * 32768 + p.val, by omega⟩ : Fin 2097152) :=
    funext fun a => Fin.ext (by
      match a with
      | ⟨0, _⟩ => show win0_7.index t (0 : Fin 2) * 6 + 1 * o.val = o.val; rw [e70]; omega
      | ⟨1, _⟩ => show win0_7.index t (1 : Fin 2) * 32768 + 1 * p.val = t.val * 32768 + p.val; rw [e71]; omega)
  rw [View.read_apply, e, blk1 m c t, blk2 m c t, blk3 m c t, blk4 m c t, blk5 m c t, blk6 m c t]
  exact tile_eq (V m c main_v1) (V m c main_v3) (V m c main_v8) (V m c main_v5) (V m c main_v9) (V m c main_v7) (V m c main_v10) (iblk m c 0 t) t.val (fun i p r hr => blk0 m c t i p r hr) o p _ rfl

/-- An entry of the output array is in point t's block iff its coordinates are in the block's ranges. -/
theorem mem_blk (t : Fin cfg0.N) (i : S6x2097152.Idx) :
    i ∈ ((cfg0.win 7).blk t).view.set ↔ ∀ a : Fin 2, win0_7.index t a * S6x32768.size a ≤ (i a).val ∧ (i a).val < win0_7.index t a * S6x32768.size a + S6x32768.size a := by
  show i ∈ ((View.whole main_v11).slice (win0_7.rect t)).set ↔ _
  rw [View.set_slice_whole, Rect.mem_set_unit]
  exact Iff.rfl

/-- Every entry of the output array is in the block of the point its column falls in. -/
theorem cover (i : S6x2097152.Idx) : ∃ t : Fin cfg0.N, (cfg0.win 7).flush t = true ∧ i ∈ ((cfg0.win 7).blk t).view.set := by
  have h0 : (i 0).val < 6 := (i 0).isLt
  have h1 : (i 1).val < 2097152 := (i 1).isLt
  have hN : cfg0.N = 64 := N_0
  have hlt : (i 1).val / 32768 < cfg0.N := by rw [hN]; omega
  have e70 : win0_7.index ⟨(i 1).val / 32768, hlt⟩ (0 : Fin 2) = 0 := (idx_facts _).2.2.2.2.2.2.2.1
  have e71 : win0_7.index ⟨(i 1).val / 32768, hlt⟩ (1 : Fin 2) = (i 1).val / 32768 := (idx_facts _).2.2.2.2.2.2.2.2
  refine ⟨⟨(i 1).val / 32768, hlt⟩, flush0_7 _, ?_⟩
  rw [mem_blk]
  intro a
  match a with
  | ⟨0, _⟩ => show win0_7.index _ (0 : Fin 2) * 6 ≤ (i 0).val ∧ (i 0).val < win0_7.index _ (0 : Fin 2) * 6 + 6; rw [e70]; omega
  | ⟨1, _⟩ => show win0_7.index _ (1 : Fin 2) * 32768 ≤ (i 1).val ∧ (i 1).val < win0_7.index _ (1 : Fin 2) * 32768 + 32768; rw [e71]; omega

/-- THE OUTPUT ARRAY after the region is `outT` of the arrays the region finds. -/
theorem final (c : Dev nD) : (dats m 0 c).arrAt 7 cfg0.N = outT (V m c main_v1) (V m c main_v3) (V m c main_v8) (V m c main_v5) (V m c main_v9) (V m c main_v7) (V m c main_v10) :=
  (dats m 0 c).arrAt_eq_of_cover 7 (outT (V m c main_v1) (V m c main_v3) (V m c main_v8) (V m c main_v5) (V m c main_v9) (V m c main_v7) (V m c main_v10)) (fun t _ => flushed_eq m c t) cover

end Cert.KernelIdeal.Whole

end
-- ==== Proof.Result.lean ====
/- The kernel's result. After the region the host lines transpose the output back (rows × outputs) and flatten it
   to 4096 × 3072. The entry at flat position p is therefore entry (p % 6, p / 6) of the transposed output, which is the
   network's output p % 6 on row p / 6 of the flattened input, that is on row (p / 3072, p / 6 % 512) of the input: the
   specification. -/
import proofs.«119719_j86706799772094_2_alg».proof.Proof.Whole

set_option maxRecDepth 16384

noncomputable section

namespace Cert.KernelIdeal.Whole

open Idealize.ShloMosaic Idealize.ShloMosaic.TcCoe Idealize.SL.Sem Cert.KernelIdeal Cert.KernelIdeal.Gen
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result buffer after the host lines that follow the region: the output array transposed and reshaped. -/
theorem tail_eq (c : Dev nD) : Pipeline.afterTail₀ cfgs (dats m) 0 (V0 m) [hostOps1] c main_v13
    = shapeCast S4096x3072 (transpose S2097152x6 [1, 0] (outT (V m c main_v1) (V m c main_v3) (V m c main_v8) (V m c main_v5) (V m c main_v9) (V m c main_v7) (V m c main_v10))
        transposes_S6x2097152_S2097152x6_1_0) shapeCasts_S2097152x6_S4096x3072 := by
  unfold Pipeline.afterTail₀
  show StableHlo.after hostOps1 _ (Proc.devRef .tc main_v13) = _
  after_results
  have e := (Pipeline.withArrays_arr spec0 launch0.win.arr_inj c (V0 m c) (fun w => (dats m 0 c).arrAt w (cfgs 0).N) 7).trans (final m c)
  rw [← e]
  rfl

/-- THE KERNEL'S RESULT IS THE SPECIFICATION, entry by entry. -/
theorem result_eq (c : Dev nD) :
    shapeCast S4096x3072 (transpose S2097152x6 [1, 0] (outT (V m c main_v1) (V m c main_v3) (V m c main_v8) (V m c main_v5) (V m c main_v9) (V m c main_v7) (V m c main_v10))
        transposes_S6x2097152_S2097152x6_1_0) shapeCasts_S2097152x6_S4096x3072
      = Cert.Mlp.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  have hi := Cert.Mlp.flat_lt i
  have h0 : (i 0).val < 4096 := (i 0).isLt
  have h1 : (i 1).val < 3072 := (i 1).isLt
  refine (shapeCast_apply _ shapeCasts_S2097152x6_S4096x3072 i
    (ix2 (⟨Cert.Mlp.flat i / 6, by omega⟩ : Fin 2097152) (⟨Cert.Mlp.flat i % 6, by omega⟩ : Fin 6)) ?_).trans ?_
  · rewrite [Shape.rowMajor_val_two, Shape.rowMajor_val_two]
    show Cert.Mlp.flat i / 6 * 6 + Cert.Mlp.flat i % 6 = (i 0).val * 3072 + (i 1).val
    unfold Cert.Mlp.flat
    omega
  refine (transpose_apply [1, 0] _ transposes_S6x2097152_S2097152x6_1_0
    (ix2 (⟨Cert.Mlp.flat i / 6, by omega⟩ : Fin 2097152) (⟨Cert.Mlp.flat i % 6, by omega⟩ : Fin 6))
    (ix2 (⟨Cert.Mlp.flat i % 6, by omega⟩ : Fin 6) (⟨Cert.Mlp.flat i / 6, by omega⟩ : Fin 2097152)) (fun b => match b with
    | ⟨0, _⟩ => rfl
    | ⟨1, _⟩ => rfl)).trans ?_
  show outTAt (V m c main_v1) (V m c main_v3) (V m c main_v8) (V m c main_v5) (V m c main_v9) (V m c main_v7) (V m c main_v10) (⟨Cert.Mlp.flat i % 6, by omega⟩ : Fin 6) (⟨Cert.Mlp.flat i / 6, by omega⟩ : Fin 2097152) = _
  unfold outTAt Cert.Mlp.whole
  have e : (⟨Cert.Mlp.flat i / 6 / 512, by omega⟩ : Fin 4096) = ⟨Cert.Mlp.flat i / 3072, by omega⟩ := Fin.ext (by show Cert.Mlp.flat i / 6 / 512 = Cert.Mlp.flat i / 3072; omega)
  refine congr (congr (congr (congr (congr (congr (congr (congrArg Cert.Mlp.net ?_) ?_) ?_) ?_) ?_) ?_) ?_) rfl
  · exact funext fun a => (Entry.v1_apply m c a _).trans (by rw [e])
  · exact funext fun a => funext fun k => Entry.v3_apply m c k a
  · exact funext fun k => Entry.v8_apply m c k
  · exact funext fun k => funext fun h => Entry.v5_apply m c h k
  · exact funext fun h => Entry.v9_apply m c h
  · exact funext fun h => funext fun o => Entry.v7_apply m c o h
  · exact funext fun o => Entry.v10_apply m c o

/-- THE RUN of the idealized kernel: every weakly fair execution ends with the result array at the specification of the
    argument arrays, and the argument arrays as they were. -/
theorem run : θ_run defs (onTc (τ := τ) (main (F := Ideal))) ⟨m, fun _ => 0, ρ⟩ fun r => ∀ c : Dev nD,
      r.2.mem ((c.tc : Thread nD τ).loc main_v13) = Cert.Mlp.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(((h c).2 main_v13 (Pipeline.mem_restRefs_of main_v13 (by decide) (by decide))).trans (tail_eq m c)).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.Whole

end
-- ==== Proof.RefNet.lean ====
/- The reference, read entry by entry on the extended reals: entry (b, s, o) of its result before the final reshape
   is the network's output o on row (b, s) of the input. Each einsum is a sum over the contracted index, each bias is
   added along the last axis, each relu is the larger of the entry and zero. -/
import proofs.«119719_j86706799772094_2_alg».proof.Proof.Gen.ReferenceIdeal.Read
import proofs.«119719_j86706799772094_2_alg».proof.Proof.Spec

noncomputable section

namespace Cert.ReferenceIdeal.Net

open Cert.ReferenceIdeal Cert.ReferenceIdeal.Gen Cert.ReferenceIdeal.Read Idealize.ShloMosaic Idealize.ShloMosaic.ValueIdx

/-! ## The operand indices of the three contractions and of the broadcasts, by coordinates -/

theorem l0 (b : Fin 4096) (s : Fin 512) (k : Fin 128) (i : Fin 3) : lidx_main_v0 (ix3 b s k) i = ix3 b s i :=
  funext fun a => Fin.ext (by match a with | ⟨0, _⟩ => rfl | ⟨1, _⟩ => rfl | ⟨2, _⟩ => rfl)
theorem r0 (b : Fin 4096) (s : Fin 512) (k : Fin 128) (i : Fin 3) : ridx_main_v0 (ix3 b s k) i = ix2 i k :=
  funext fun a => Fin.ext (by match a with | ⟨0, _⟩ => rfl | ⟨1, _⟩ => rfl)
theorem l5 (b : Fin 4096) (s : Fin 512) (h : Fin 128) (k : Fin 128) : lidx_main_v5 (ix3 b s h) k = ix3 b s k :=
  funext fun a => Fin.ext (by match a with | ⟨0, _⟩ => rfl | ⟨1, _⟩ => rfl | ⟨2, _⟩ => rfl)
theorem r5 (b : Fin 4096) (s : Fin 512) (h : Fin 128) (k : Fin 128) : ridx_main_v5 (ix3 b s h) k = ix2 k h :=
  funext fun a => Fin.ext (by match a with | ⟨0, _⟩ => rfl | ⟨1, _⟩ => rfl)
theorem l10 (b : Fin 4096) (s : Fin 512) (o : Fin 6) (h : Fin 128) : lidx_main_v10 (ix3 b s o) h = ix3 b s h :=
  funext fun a => Fin.ext (by match a with | ⟨0, _⟩ => rfl | ⟨1, _⟩ => rfl | ⟨2, _⟩ => rfl)
theorem r10 (b : Fin 4096) (s : Fin 512) (o : Fin 6) (h : Fin 128) : ridx_main_v10 (ix3 b s o) h = ix2 h o :=
  funext fun a => Fin.ext (by match a with | ⟨0, _⟩ => rfl | ⟨1, _⟩ => rfl)
theorem b1 (b : Fin 4096) (s : Fin 512) (k : Fin 128) : idx_main_v1 (idx_main_v2 (ix3 b s k)) = ix1 k :=
  funext fun a => Fin.ext (by match a with | ⟨0, _⟩ => rfl)
theorem b6 (b : Fin 4096) (s : Fin 512) (k : Fin 128) : idx_main_v6 (idx_main_v7 (ix3 b s k)) = ix1 k :=
  funext fun a => Fin.ext (by match a with | ⟨0, _⟩ => rfl)
theorem b11 (b : Fin 4096) (s : Fin 512) (o : Fin 6) : idx_main_v11 (idx_main_v12 (ix3 b s o)) = ix1 o :=
  funext fun a => Fin.ext (by match a with | ⟨0, _⟩ => rfl)

/-! ## The layers -/

/-- The first hidden layer at (b, s, k). -/
theorem hid1 (x0 : (⟨S4096x512x3, .f32⟩ : BufTy).Contents (Elt Ideal)) (x1 : (⟨S3x128, .f32⟩ : BufTy).Contents (Elt Ideal)) (x2 : (⟨S128, .f32⟩ : BufTy).Contents (Elt Ideal)) (b : Fin 4096) (s : Fin 512) (k : Fin 128) :
    val_main_v4 (F := Ideal) x0 x1 x2 (ix3 b s k)
      = Cert.Mlp.relu (Cert.Mlp.dense (fun i : Fin 3 => x0 (ix3 b s i)) (fun i => x1 (ix2 i k)) (x2 (ix1 k))) := by
  rw [val_main_v4_apply, val_main_v3_apply, val_main_v0_apply, val_main_v2_apply, val_main_v1_apply,
    val_main_call0_v0_apply, val_main_call0_cst_apply]
  simp only [l0, r0, b1]
  show max (_ + _) (Ideal.ofBits .f32 0x00000000#32) = max _ 0
  rw [Ideal.ofBits_zero_f32]
  rfl

/-- The second hidden layer at (b, s, h). -/
theorem hid2 (x0 : (⟨S4096x512x3, .f32⟩ : BufTy).Contents (Elt Ideal)) (x1 : (⟨S3x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (b : Fin 4096) (s : Fin 512) (h : Fin 128) :
    val_main_v9 (F := Ideal) x0 x1 x2 x3 x4 (ix3 b s h)
      = Cert.Mlp.relu (Cert.Mlp.dense (fun k : Fin 128 => val_main_v4 (F := Ideal) x0 x1 x2 (ix3 b s k)) (fun k => x3 (ix2 k h)) (x4 (ix1 h))) := by
  rw [val_main_v9_apply, val_main_v8_apply, val_main_v5_apply, val_main_v7_apply, val_main_v6_apply,
    val_main_call1_v0_apply, val_main_call1_cst_apply]
  simp only [l5, r5, b6]
  show max (_ + _) (Ideal.ofBits .f32 0x00000000#32) = max _ 0
  rw [Ideal.ofBits_zero_f32]
  rfl

/-- ENTRY (b, s, o) of the reference's result before its reshape is the network's output `o` on input row (b, s). -/
theorem out_apply (x0 : (⟨S4096x512x3, .f32⟩ : BufTy).Contents (Elt Ideal)) (x1 : (⟨S3x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x6, .f32⟩ : BufTy).Contents (Elt Ideal)) (x6 : (⟨S6, .f32⟩ : BufTy).Contents (Elt Ideal)) (b : Fin 4096) (s : Fin 512) (o : Fin 6) :
    val_main_v13 (F := Ideal) x0 x1 x2 x3 x4 x5 x6 (ix3 b s o)
      = Cert.Mlp.net (fun i => x0 (ix3 b s i)) (fun i k => x1 (ix2 i k)) (fun k => x2 (ix1 k)) (fun k h => x3 (ix2 k h))
          (fun h => x4 (ix1 h)) (fun h o => x5 (ix2 h o)) (fun o => x6 (ix1 o)) o := by
  rw [val_main_v13_apply, val_main_v10_apply, val_main_v12_apply, val_main_v11_apply]
  simp only [l10, r10, b11, hid2, hid1]
  rfl

/-- THE REFERENCE'S RESULT is the specification: its final reshape reads the entry at the same row-major position. -/
theorem result_eq (x0 : (⟨S4096x512x3, .f32⟩ : BufTy).Contents (Elt Ideal)) (x1 : (⟨S3x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x6, .f32⟩ : BufTy).Contents (Elt Ideal)) (x6 : (⟨S6, .f32⟩ : BufTy).Contents (Elt Ideal)) :
    val_main_v14 (F := Ideal) x0 x1 x2 x3 x4 x5 x6 = Cert.Mlp.whole x0 x1 x2 x3 x4 x5 x6 := by
  funext i
  have hi := Cert.Mlp.flat_lt i
  have e : idx_main_v14 i = ix3 (⟨Cert.Mlp.flat i / 3072, by omega⟩ : Fin 4096) (⟨Cert.Mlp.flat i / 6 % 512, by omega⟩ : Fin 512)
      (⟨Cert.Mlp.flat i % 6, by omega⟩ : Fin 6) :=
    funext fun a => Fin.ext (by match a with | ⟨0, _⟩ => rfl | ⟨1, _⟩ => rfl | ⟨2, _⟩ => rfl)
  rw [val_main_v14_apply, e, out_apply]
  rfl

end Cert.ReferenceIdeal.Net

end
-- ==== Proof.lean ====
/- The kernel and the reference are one function on the extended reals.

   The function: a perceptron with two hidden layers of width 128, each clamped below at zero, taking each of the
   4096 × 512 rows of 3 input features to 6 outputs; the result is the 4096 × 512 × 6 array of outputs flattened to
   4096 × 3072 (Proof/Spec.lean).

   The reference computes it row by row with three contractions, three biases and two maxima against zero
   (Proof/RefNet.lean). The kernel works on the transposed problem: the host lines before the region flatten and
   transpose the input to features × rows, transpose the weights and turn the biases into columns (Proof/Entry.lean);
   each of the 64 grid points takes 32768 columns, and the body treats them in eight blocks of 4096 columns, each block
   three matrix products with the transposed weights on the left (Proof/Cols.lean, Proof/ColsAt.lean, Proof/Tile.lean);
   the tiles cover the transposed output once (Proof/Whole.lean), and the host lines after the region transpose it back
   and flatten it (Proof/Result.lean). At an entry the two sides differ only in the side on which each weight stands
   in each product, and the product of extended reals commutes; the sums run over the same index in the same order, the
   changes of float format are the identity, and no entry needs to be finite.

   The idealization rewrote nothing, so there is nothing to preserve; the three frames are the generated frame runs and
   the reference's generated run. -/
import proofs.«119719_j86706799772094_2_alg».proof.Defs
import proofs.«119719_j86706799772094_2_alg».proof.Proof.Gen.Kernel
import proofs.«119719_j86706799772094_2_alg».proof.Proof.Gen.Kernel.Skeleton
import proofs.«119719_j86706799772094_2_alg».proof.Proof.Gen.Kernel.Launch
import proofs.«119719_j86706799772094_2_alg».proof.Proof.Gen.Kernel.Points
import proofs.«119719_j86706799772094_2_alg».proof.Proof.Gen.Kernel.Frame
import proofs.«119719_j86706799772094_2_alg».proof.Proof.Gen.KernelIdeal
import proofs.«119719_j86706799772094_2_alg».proof.Proof.Gen.KernelIdeal.Skeleton
import proofs.«119719_j86706799772094_2_alg».proof.Proof.Gen.KernelIdeal.Launch
import proofs.«119719_j86706799772094_2_alg».proof.Proof.Gen.KernelIdeal.Points
import proofs.«119719_j86706799772094_2_alg».proof.Proof.Gen.KernelIdeal.Frame
import proofs.«119719_j86706799772094_2_alg».proof.Proof.Gen.ReferenceIdeal
import proofs.«119719_j86706799772094_2_alg».proof.Proof.Gen.ReferenceIdeal.Run
import proofs.«119719_j86706799772094_2_alg».proof.Proof.Gen.ReferenceIdeal.Read
import proofs.«119719_j86706799772094_2_alg».proof.Proof.Gen.Pre_finite_inputs
import proofs.«119719_j86706799772094_2_alg».proof.Proof.Result
import proofs.«119719_j86706799772094_2_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the specification of those arguments in
    their result: the kernel by its run read tile by tile, the reference by its run read entry by entry. -/
theorem algebraic : Cert.algebraic_KernelIdeal_ReferenceIdeal := by
  intro m ρ m' ρ' _ hagree
  refine ⟨fun c => Cert.Mlp.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Net.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
